-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x6 : Shape := ⟨2, ![4194304, 6]⟩
abbrev S_ : Shape := ⟨0, ![]⟩

class Facts : Prop where
  bcast_S_S4194304x6 : S_.BroadcastsInDim S4194304x6 (![] : Fin 0 → Fin S4194304x6.rank)
  reducesTo_S4194304x6_S_d0_1 : S4194304x6.ReducesTo [0, 1] S_
  h_S_ : 0 < S_.numel

variable [Facts]

def fn {F : FTy → Type} [FloatOps F] (main_arg0 : FVec F S4194304x6 .f32) : IVec S_ 1 :=
  let main_v0 : FVec F S4194304x6 .f32 := Host.absf main_arg0
  let main_cst : FVec F S_ .f32 := constant S_ .f32 0x7F800000#32
  let main_v1 : FVec F S4194304x6 .f32 := broadcastInDim S4194304x6 ![] bcast_S_S4194304x6 main_cst
  let main_v2 : IVec S4194304x6 1 := cmpf .olt main_v0 main_v1
  let main_c : IVec S_ 1 := constantI S_ 1 1#1
  let main_v3 : IVec S_ 1 := (fun x v => Host.reduce IntOp.andi x v reducesTo_S4194304x6_S_d0_1 h_S_) main_v2 main_c
  main_v3
-- ==== Kernel.lean ====
abbrev S4194304x6 : Shape := ⟨2, ![4194304, 6]⟩
abbrev S4194304x12 : Shape := ⟨2, ![4194304, 12]⟩
abbrev S8192x6 : Shape := ⟨2, ![8192, 6]⟩
abbrev S8192x12 : Shape := ⟨2, ![8192, 12]⟩
abbrev S8192x1 : Shape := ⟨2, ![8192, 1]⟩
abbrev S8192 : Shape := ⟨1, ![8192]⟩

abbrev nBuf : Space → Nat
  | .hbm => 2
  | .vmem => 4
  | .smem => 0
  | _ => 0

abbrev bufTy : (tb : Table) → Fin (tcTables nBuf tb) → BufTy
  | .hbm, ⟨0, _⟩ => ⟨S4194304x6, .f32⟩
  | .hbm, ⟨1, _⟩ => ⟨S4194304x12, .f32⟩
  | .local _ .vmem, ⟨0, _⟩ => ⟨S8192x6, .f32⟩
  | .local _ .vmem, ⟨1, _⟩ => ⟨S8192x6, .f32⟩
  | .local _ .vmem, ⟨2, _⟩ => ⟨S8192x12, .f32⟩
  | .local _ .vmem, ⟨3, _⟩ => ⟨S8192x12, .f32⟩
  | _, _ => ⟨S4194304x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x12 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S8192x6_S8192x6_0_0 : ∀ a, (![0, 0] : Fin 2 → Nat) a + S8192x6.size a ≤ S8192x6.size a
  h_S8192x6 : 0 < S8192x6.numel
  slices_S8192x6_o0_0_S8192x1 : S8192x6.Slices ![0, 0] S8192x1
  shapeCasts_S8192x1_S8192 : S8192x1.ShapeCasts S8192
  slices_S8192x6_o0_1_S8192x1 : S8192x6.Slices ![0, 1] S8192x1
  slices_S8192x6_o0_2_S8192x1 : S8192x6.Slices ![0, 2] S8192x1
  slices_S8192x6_o0_3_S8192x1 : S8192x6.Slices ![0, 3] S8192x1
  slices_S8192x6_o0_4_S8192x1 : S8192x6.Slices ![0, 4] S8192x1
  slices_S8192x6_o0_5_S8192x1 : S8192x6.Slices ![0, 5] S8192x1
  inb_S8192x12_S8192x1_0_0 : ∀ a, (![0, 0] : Fin 2 → Nat) a + S8192x1.size a ≤ S8192x12.size a
  h_S8192x1 : 0 < S8192x1.numel
  shapeCasts_S8192_S8192x1 : S8192.ShapeCasts S8192x1
  inb_S8192x12_S8192x1_0_1 : ∀ a, (![0, 1] : Fin 2 → Nat) a + S8192x1.size a ≤ S8192x12.size a
  inb_S8192x12_S8192x1_0_2 : ∀ a, (![0, 2] : Fin 2 → Nat) a + S8192x1.size a ≤ S8192x12.size a
  inb_S8192x12_S8192x1_0_3 : ∀ a, (![0, 3] : Fin 2 → Nat) a + S8192x1.size a ≤ S8192x12.size a
  inb_S8192x12_S8192x1_0_4 : ∀ a, (![0, 4] : Fin 2 → Nat) a + S8192x1.size a ≤ S8192x12.size a
  inb_S8192x12_S8192x1_0_5 : ∀ a, (![0, 5] : Fin 2 → Nat) a + S8192x1.size a ≤ S8192x12.size a
  inb_S8192x12_S8192x1_0_6 : ∀ a, (![0, 6] : Fin 2 → Nat) a + S8192x1.size a ≤ S8192x12.size a
  inb_S8192x12_S8192x1_0_7 : ∀ a, (![0, 7] : Fin 2 → Nat) a + S8192x1.size a ≤ S8192x12.size a
  inb_S8192x12_S8192x1_0_8 : ∀ a, (![0, 8] : Fin 2 → Nat) a + S8192x1.size a ≤ S8192x12.size a
  inb_S8192x12_S8192x1_0_9 : ∀ a, (![0, 9] : Fin 2 → Nat) a + S8192x1.size a ≤ S8192x12.size a
  inb_S8192x12_S8192x1_0_10 : ∀ a, (![0, 10] : Fin 2 → Nat) a + S8192x1.size a ≤ S8192x12.size a
  inb_S8192x12_S8192x1_0_11 : ∀ a, (![0, 11] : Fin 2 → Nat) a + S8192x1.size a ≤ S8192x12.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x6.size a ≤ S4194304x6.size a
  hwx0_0 : ∀ i : grid0.Coords, EltTy.bits .f32 = 32 ∨ (Rect.block (s := S4194304x6) S8192x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x12.size a ≤ S4194304x12.size a
  hwx0_1 : ∀ i : grid0.Coords, EltTy.bits .f32 = 32 ∨ (Rect.block (s := S4194304x12) S8192x12.size (cc0_transform_1 i) (hinb0_1 i)).WholeWords (EltTy.packing .f32)

variable [Facts₀]

abbrev win0_0 : Pipeline.Window sig grid0 :=
  Pipeline.Window.ofSpec (Memref.whole main_arg0) S8192x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x12.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4194304x6 : Shape := ⟨2, ![4194304, 6]⟩
abbrev S4194304x1 : Shape := ⟨2, ![4194304, 1]⟩
abbrev S4194304 : Shape := ⟨1, ![4194304]⟩
abbrev S4194304x3 : Shape := ⟨2, ![4194304, 3]⟩
abbrev S_ : Shape := ⟨0, ![]⟩
abbrev S4194304x9 : Shape := ⟨2, ![4194304, 9]⟩
abbrev S4194304x3x3 : Shape := ⟨3, ![4194304, 3, 3]⟩
abbrev S4194304x3x1 : Shape := ⟨3, ![4194304, 3, 1]⟩
abbrev S4194304x3x4 : Shape := ⟨3, ![4194304, 3, 4]⟩
abbrev S4194304x12 : Shape := ⟨2, ![4194304, 12]⟩

abbrev nBuf : Space → Nat
  | .hbm => 59
  | .vmem => 0
  | .smem => 0
  | _ => 0

abbrev bufTy : (tb : Table) → Fin (tcTables nBuf tb) → BufTy
  | .hbm, ⟨0, _⟩ => ⟨S4194304x6, .f32⟩
  | .hbm, ⟨1, _⟩ => ⟨S4194304x1, .f32⟩
  | .hbm, ⟨2, _⟩ => ⟨S4194304, .f32⟩
  | .hbm, ⟨3, _⟩ => ⟨S4194304x1, .f32⟩
  | .hbm, ⟨4, _⟩ => ⟨S4194304, .f32⟩
  | .hbm, ⟨5, _⟩ => ⟨S4194304x1, .f32⟩
  | .hbm, ⟨6, _⟩ => ⟨S4194304, .f32⟩
  | .hbm, ⟨7, _⟩ => ⟨S4194304x3, .f32⟩
  | .hbm, ⟨8, _⟩ => ⟨S4194304, .f32⟩
  | .hbm, ⟨9, _⟩ => ⟨S4194304, .f32⟩
  | .hbm, ⟨10, _⟩ => ⟨S4194304, .f32⟩
  | .hbm, ⟨11, _⟩ => ⟨S4194304, .f32⟩
  | .hbm, ⟨12, _⟩ => ⟨S4194304, .f32⟩
  | .hbm, ⟨13, _⟩ => ⟨S4194304, .f32⟩
  | .hbm, ⟨14, _⟩ => ⟨S_, .f32⟩
  | .hbm, ⟨15, _⟩ => ⟨S4194304, .f32⟩
  | .hbm, ⟨16, _⟩ => ⟨S_, .f32⟩
  | .hbm, ⟨17, _⟩ => ⟨S4194304, .f32⟩
  | .hbm, ⟨18, _⟩ => ⟨S4194304, .f32⟩
  | .hbm, ⟨19, _⟩ => ⟨S4194304x1, .f32⟩
  | .hbm, ⟨20, _⟩ => ⟨S4194304x1, .f32⟩
  | .hbm, ⟨21, _⟩ => ⟨S4194304x1, .f32⟩
  | .hbm, ⟨22, _⟩ => ⟨S4194304x1, .f32⟩
  | .hbm, ⟨23, _⟩ => ⟨S4194304x1, .f32⟩
  | .hbm, ⟨24, _⟩ => ⟨S4194304x1, .f32⟩
  | .hbm, ⟨25, _⟩ => ⟨S4194304x1, .f32⟩
  | .hbm, ⟨26, _⟩ => ⟨S4194304x1, .f32⟩
  | .hbm, ⟨27, _⟩ => ⟨S4194304x1, .f32⟩
  | .hbm, ⟨28, _⟩ => ⟨S4194304x9, .f32⟩
  | .hbm, ⟨29, _⟩ => ⟨S4194304x3x3, .f32⟩
  | .hbm, ⟨30, _⟩ => ⟨S4194304, .f32⟩
  | .hbm, ⟨31, _⟩ => ⟨S4194304x1, .f32⟩
  | .hbm, ⟨32, _⟩ => ⟨S4194304x1, .f32⟩
  | .hbm, ⟨33, _⟩ => ⟨S4194304x1, .f32⟩
  | .hbm, ⟨34, _⟩ => ⟨S4194304x1, .f32⟩
  | .hbm, ⟨35, _⟩ => ⟨S4194304x1, .f32⟩
  | .hbm, ⟨36, _⟩ => ⟨S4194304x1, .f32⟩
  | .hbm, ⟨37, _⟩ => ⟨S4194304x1, .f32⟩
  | .hbm, ⟨38, _⟩ => ⟨S4194304x1, .f32⟩
  | .hbm, ⟨39, _⟩ => ⟨S4194304x1, .f32⟩
  | .hbm, ⟨40, _⟩ => ⟨S4194304x9, .f32⟩
  | .hbm, ⟨41, _⟩ => ⟨S4194304x3x3, .f32⟩
  | .hbm, ⟨42, _⟩ => ⟨S4194304, .f32⟩
  | .hbm, ⟨43, _⟩ => ⟨S4194304x1, .f32⟩
  | .hbm, ⟨44, _⟩ => ⟨S4194304x1, .f32⟩
  | .hbm, ⟨45, _⟩ => ⟨S4194304x1, .f32⟩
  | .hbm, ⟨46, _⟩ => ⟨S4194304x1, .f32⟩
  | .hbm, ⟨47, _⟩ => ⟨S4194304x1, .f32⟩
  | .hbm, ⟨48, _⟩ => ⟨S4194304x1, .f32⟩
  | .hbm, ⟨49, _⟩ => ⟨S4194304x1, .f32⟩
  | .hbm, ⟨50, _⟩ => ⟨S4194304x1, .f32⟩
  | .hbm, ⟨51, _⟩ => ⟨S4194304x1, .f32⟩
  | .hbm, ⟨52, _⟩ => ⟨S4194304x9, .f32⟩
  | .hbm, ⟨53, _⟩ => ⟨S4194304x3x3, .f32⟩
  | .hbm, ⟨54, _⟩ => ⟨S4194304x3x3, .f32⟩
  | .hbm, ⟨55, _⟩ => ⟨S4194304x3x3, .f32⟩
  | .hbm, ⟨56, _⟩ => ⟨S4194304x3x1, .f32⟩
  | .hbm, ⟨57, _⟩ => ⟨S4194304x3x4, .f32⟩
  | .hbm, ⟨58, _⟩ => ⟨S4194304x12, .f32⟩
  | _, _ => ⟨S4194304x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_cst : Ref sig .tc := ⟨.hbm, 14, rfl⟩
abbrev main_v13 : Ref sig .tc := ⟨.hbm, 15, rfl⟩
abbrev main_cst_0 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩

abbrev nD : Nat := 1
abbrev τ : Topo := Topo.v7x

variable {F : FTy → Type} [FloatOps F]

class Facts₀ : Prop where
  slices_S4194304x6_S4194304x1_0_0 : S4194304x6.Slices ![0, 0] S4194304x1
  shapeCasts_S4194304x1_S4194304 : S4194304x1.ShapeCasts S4194304
  slices_S4194304x6_S4194304x1_0_1 : S4194304x6.Slices ![0, 1] S4194304x1
  slices_S4194304x6_S4194304x1_0_2 : S4194304x6.Slices ![0, 2] S4194304x1
  slices_S4194304x6_S4194304x3_0_3 : S4194304x6.Slices ![0, 3] S4194304x3
  bcast_S_S4194304 : S_.BroadcastsInDim S4194304 (![] : Fin 0 → Fin S4194304.rank)
  bcast_S4194304_S4194304x1_0 : S4194304.BroadcastsInDim S4194304x1 (![0] : Fin 1 → Fin S4194304x1.rank)
  concatenates_S4194304x1_S4194304x1_S4194304x1_S4194304x1_S4194304x1_S4194304x1_S4194304x1_S4194304x1_S4194304x1_S4194304x9_d1 : Shape.Concatenates [S4194304x1, S4194304x1, S4194304x1, S4194304x1, S4194304x1, S4194304x1, S4194304x1, S4194304x1, S4194304x1] S4194304x9 1
  shapeCasts_S4194304x9_S4194304x3x3 : S4194304x9.ShapeCasts S4194304x3x3
  bcast_S4194304x3_S4194304x3x1_0_1 : S4194304x3.BroadcastsInDim S4194304x3x1 (![0, 1] : Fin 2 → Fin S4194304x3x1.rank)
  concatenates_S4194304x3x3_S4194304x3x1_S4194304x3x4_d2 : Shape.Concatenates [S4194304x3x3, S4194304x3x1] S4194304x3x4 2
  shapeCasts_S4194304x3x4_S4194304x12 : S4194304x3x4.ShapeCasts S4194304x12
  dot_S4194304x3x3_S4194304x3x3_S4194304x3x3_1_2_2_1_0_0_wf : DotDims.WF S4194304x3x3 S4194304x3x3 S4194304x3x3 [1] [2] [2] [1] [0] [0]
  dot_S4194304x3x3_S4194304x3x3_S4194304x3x3_1_1_2_2_0_0_wf : DotDims.WF S4194304x3x3 S4194304x3x3 S4194304x3x3 [1] [1] [2] [2] [0] [0]

variable [Facts₀]

def dot_S4194304x3x3_S4194304x3x3_S4194304x3x3_1_2_2_1_0_0 : DotDims S4194304x3x3 S4194304x3x3 S4194304x3x3 where
  lhsContracting := [1]
  rhsContracting := [2]
  lhsNonContracting := [2]
  rhsNonContracting := [1]
  lhsBatch := [0]
  rhsBatch := [0]
  wf := dot_S4194304x3x3_S4194304x3x3_S4194304x3x3_1_2_2_1_0_0_wf
def dot_S4194304x3x3_S4194304x3x3_S4194304x3x3_1_1_2_2_0_0 : DotDims S4194304x3x3 S4194304x3x3 S4194304x3x3 where
  lhsContracting := [1]
  rhsContracting := [1]
  lhsNonContracting := [2]
  rhsNonContracting := [2]
  lhsBatch := [0]
  rhsBatch := [0]
  wf := dot_S4194304x3x3_S4194304x3x3_S4194304x3x3_1_1_2_2_0_0_wf

class Facts : Prop extends Facts₀ where

variable [Facts]
-- ==== Proof.AffineRow.lean ====
/-
  An affine row from three Euler angles and a translation.

  For angles `ax, ay, az` and a translation `(tx, ty, tz)` the row is the 3 by 4 matrix `[R | t]` flattened row by row,
  where `R = Rx(ax) · Ry(ay) · Rz(az)` is the product of the rotations about the three axes. Written out, with
  `c• = cos` and `s• = sin` of the angle,
      R00 =  cy cz            R01 = -cy sz            R02 =  sy
      R10 =  cx sz + sx sy cz R11 =  cx cz - sx sy sz R12 = -sx cy
      R20 =  sx sz - cx sy cz R21 =  sx cz + cx sy sz R22 =  cx cy.
  `affineRow` is that closed form on the extended reals (a negation written `0 - x`), and `rows` applies it to every row of
  an `[n, 6]` array. That the closed form IS the triple matrix product, for finite angles, is a separate module.
-/
import Idealize.ShloMosaic.PureOps.Ideal
import Idealize.ShloMosaic.Lib.ValueIdx

noncomputable section

namespace Cert.EulerAffine

open Idealize.ShloMosaic Idealize.ShloMosaic.ValueIdx

/-- The twelve entries of `[R | t]`, row by row, from the three angles and the translation. -/
def affineRow (ax ay az tx ty tz : EReal) : Fin 12 → EReal :=
  ![Ideal.cos ay * Ideal.cos az,
    (0 - Ideal.cos ay) * Ideal.sin az,
    Ideal.sin ay,
    tx,
    Ideal.cos ax * Ideal.sin az + Ideal.sin ax * Ideal.sin ay * Ideal.cos az,
    Ideal.cos ax * Ideal.cos az - Ideal.sin ax * Ideal.sin ay * Ideal.sin az,
    (0 - Ideal.sin ax) * Ideal.cos ay,
    ty,
    Ideal.sin ax * Ideal.sin az - Ideal.cos ax * Ideal.sin ay * Ideal.cos az,
    Ideal.sin ax * Ideal.cos az + Ideal.cos ax * Ideal.sin ay * Ideal.sin az,
    Ideal.cos ax * Ideal.cos ay,
    tz]

/-! The entries one at a time. -/

section Entries
variable (ax ay az tx ty tz : EReal)
theorem affineRow_0 : affineRow ax ay az tx ty tz 0 = Ideal.cos ay * Ideal.cos az := rfl
theorem affineRow_1 : affineRow ax ay az tx ty tz 1 = (0 - Ideal.cos ay) * Ideal.sin az := rfl
theorem affineRow_2 : affineRow ax ay az tx ty tz 2 = Ideal.sin ay := rfl
theorem affineRow_3 : affineRow ax ay az tx ty tz 3 = tx := rfl
theorem affineRow_4 : affineRow ax ay az tx ty tz 4 = Ideal.cos ax * Ideal.sin az + Ideal.sin ax * Ideal.sin ay * Ideal.cos az := rfl
theorem affineRow_5 : affineRow ax ay az tx ty tz 5 = Ideal.cos ax * Ideal.cos az - Ideal.sin ax * Ideal.sin ay * Ideal.sin az := rfl
theorem affineRow_6 : affineRow ax ay az tx ty tz 6 = (0 - Ideal.sin ax) * Ideal.cos ay := rfl
theorem affineRow_7 : affineRow ax ay az tx ty tz 7 = ty := rfl
theorem affineRow_8 : affineRow ax ay az tx ty tz 8 = Ideal.sin ax * Ideal.sin az - Ideal.cos ax * Ideal.sin ay * Ideal.cos az := rfl
theorem affineRow_9 : affineRow ax ay az tx ty tz 9 = Ideal.sin ax * Ideal.cos az + Ideal.cos ax * Ideal.sin ay * Ideal.sin az := rfl
theorem affineRow_10 : affineRow ax ay az tx ty tz 10 = Ideal.cos ax * Ideal.cos ay := rfl
theorem affineRow_11 : affineRow ax ay az tx ty tz 11 = tz := rfl
end Entries

/-- Every row `(ax, ay, az, tx, ty, tz)` of an `[n, 6]` array sent to its affine row: an `[n, 12]` array. -/
def rows {n : ℕ} (x : (⟨2, ![n, 6]⟩ : Shape).Idx → EReal) : (⟨2, ![n, 12]⟩ : Shape).Idx → EReal :=
  fun y => affineRow (x (ix2 (y 0 : Fin n) (0 : Fin 6))) (x (ix2 (y 0 : Fin n) (1 : Fin 6))) (x (ix2 (y 0 : Fin n) (2 : Fin 6)))
    (x (ix2 (y 0 : Fin n) (3 : Fin 6))) (x (ix2 (y 0 : Fin n) (4 : Fin 6))) (x (ix2 (y 0 : Fin n) (5 : Fin 6))) (y 1 : Fin 12)

theorem rows_apply {n : ℕ} (x : (⟨2, ![n, 6]⟩ : Shape).Idx → EReal) (p : Fin n) (q : Fin 12) :
    rows x (ix2 p q) = affineRow (x (ix2 p 0)) (x (ix2 p 1)) (x (ix2 p 2)) (x (ix2 p 3)) (x (ix2 p 4)) (x (ix2 p 5)) q := rfl

end Cert.EulerAffine
-- ==== Proof.LibColumnLayout.lean ====
/-
  Two layout operations read at an index given by coordinates: the column forms a `keepdims` row reduction meets.
  A vector of `a` row values becomes an `[a, 1]` column by a shape cast, and that column is repeated along a new
  second axis of extent `b` by a broadcast; read at `(i, j)` the result is the vector's value at `i`, whatever `j`.
  General in the extents; stated over indices built from coordinates so that they apply by unification.
-/
import Idealize.ShloMosaic.Lib.ValueLayout

namespace Cert.Lib.ColumnLayout

open Idealize.ShloMosaic Idealize.ShloMosaic.ValueIdx

variable {α : Type}

/-- An `[a]` array cast to the column `[a, 1]` reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the unit axis is read at `0`,
    the row axis at `p` (when `a` is itself `1` the row coordinate is `0` either way). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColumnLayout
-- ==== Proof.LibRowRecords.lean ====
/-
  Layout operations read at an index given by coordinates, for arrays whose rows are short records: a column of a
  matrix taken out as a vector; a vector put back as a one-entry-wide column; a row of length `b * c` regrouped as a
  `b` by `c` table and back; and a row-wise stack of 3 by 3 matrices assembled from nine columns. General in the
  number of rows; stated over indices built from coordinates so that they apply by unification.
-/
import Idealize.ShloMosaic.Lib.ValueLayout

namespace Cert.Lib.RowRecords

open Idealize.ShloMosaic Idealize.ShloMosaic.ValueIdx

variable {α : Type}

/-- A column `[a, 1]` cast to the vector `[a]` reads, at `i`, the column's entry in row `i`: both indices have
    row-major position `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- Column `o` of an `[a, w]` matrix, cut out as an `[a, 1]` slice and cast to a vector, reads at `i` the matrix at
    `(i, o)`. -/
theorem column_apply {a w : ℕ} (o : ℕ) (X : (⟨2, ![a, w]⟩ : Shape).Idx → α)
    (hs : (⟨2, ![a, w]⟩ : Shape).Slices ![0, o] ⟨2, ![a, 1]⟩) (hc : (⟨2, ![a, 1]⟩ : Shape).ShapeCasts ⟨1, ![a]⟩)
    (i : Fin a) (k : Fin w) (hk : k.val = o) :
    shapeCast ⟨1, ![a]⟩ (extractStridedSlice ⟨2, ![a, 1]⟩ ![0, o] X hs) hc (ix1 i) = X (ix2 i k) :=
  (shapeCast_a1_a_apply _ hc i).trans (slice2_axis1_apply o X hs i (0 : Fin 1) k (by rw [hk]; rfl))

/-- A vector `[a]` broadcast along its own axis into the column `[a, 1]` reads, at `(i, u)`, the vector at `i`. -/
theorem broadcastInDim_a_a1_apply {a : ℕ} (v : (⟨1, ![a]⟩ : Shape).Idx → α)
    (dims : Fin (⟨1, ![a]⟩ : Shape).rank → Fin (⟨2, ![a, 1]⟩ : Shape).rank) (hd : dims 0 = 0)
    (h : (⟨1, ![a]⟩ : Shape).BroadcastsInDim ⟨2, ![a, 1]⟩ dims) (i : Fin a) (u : Fin 1) :
    broadcastInDim ⟨2, ![a, 1]⟩ dims h v (ix2 i u) = v (ix1 i) := by
  refine broadcastInDim_apply dims h v (ix2 i u) (ix1 i) fun ax => ?_
  match ax with
  | ⟨0, _⟩ =>
    show i.val = if a = 1 then 0 else (ix2 i u (dims 0)).val
    rw [hd]
    split
    · have := i.isLt; omega
    · rfl

/-- A matrix `[a, b]` broadcast along its own two axes into `[a, b, 1]` reads, at `(i, j, u)`, the matrix at `(i, j)`. -/
theorem broadcastInDim_ab_ab1_apply {a b : ℕ} (v : (⟨2, ![a, b]⟩ : Shape).Idx → α)
    (dims : Fin (⟨2, ![a, b]⟩ : Shape).rank → Fin (⟨3, ![a, b, 1]⟩ : Shape).rank) (hd0 : dims 0 = 0) (hd1 : dims 1 = 1)
    (h : (⟨2, ![a, b]⟩ : Shape).BroadcastsInDim ⟨3, ![a, b, 1]⟩ dims) (i : Fin a) (j : Fin b) (u : Fin 1) :
    broadcastInDim ⟨3, ![a, b, 1]⟩ dims h v (ix3 i j u) = v (ix2 i j) := by
  refine broadcastInDim_apply dims h v (ix3 i j u) (ix2 i j) fun ax => ?_
  match ax with
  | ⟨0, _⟩ =>
    show i.val = if a = 1 then 0 else (ix3 i j u (dims 0)).val
    rw [hd0]
    split
    · have := i.isLt; omega
    · rfl
  | ⟨1, _⟩ =>
    show j.val = if b = 1 then 0 else (ix3 i j u (dims 1)).val
    rw [hd1]
    split
    · have := j.isLt; omega
    · rfl

/-- Rows of length `n = b * c` regrouped as `b` by `c` tables: the table entry `(j, l)` of row `i` is the row's entry
    `j * c + l`. -/
theorem shapeCast_an_abc_apply {a b c n : ℕ} (x : (⟨2, ![a, n]⟩ : Shape).Idx → α)
    (h : (⟨2, ![a, n]⟩ : Shape).ShapeCasts ⟨3, ![a, b, c]⟩) (hn : n = b * c)
    (i : Fin a) (j : Fin b) (l : Fin c) (q : Fin n) (hq : q.val = j.val * c + l.val) :
    shapeCast ⟨3, ![a, b, c]⟩ x h (ix3 i j l) = x (ix2 i q) :=
  shapeCast_apply x h _ _ (by
    rw [Shape.rowMajor_val_two, Shape.rowMajor_val_three]
    show i.val * n + q.val = (i.val * b + j.val) * c + l.val
    rw [hq, hn]; ring)

/-- And back: `b` by `c` tables flattened to rows of length `n = b * c`; the row's entry `j * c + l` is the table
    entry `(j, l)`. -/
theorem shapeCast_abc_an_apply {a b c n : ℕ} (x : (⟨3, ![a, b, c]⟩ : Shape).Idx → α)
    (h : (⟨3, ![a, b, c]⟩ : Shape).ShapeCasts ⟨2, ![a, n]⟩) (hn : n = b * c)
    (i : Fin a) (j : Fin b) (l : Fin c) (q : Fin n) (hq : q.val = j.val * c + l.val) :
    shapeCast ⟨2, ![a, n]⟩ x h (ix2 i q) = x (ix3 i j l) :=
  shapeCast_apply x h _ _ (by
    rw [Shape.rowMajor_val_two, Shape.rowMajor_val_three]
    show (i.val * b + j.val) * c + l.val = i.val * n + q.val
    rw [hq, hn]; ring)

/-- The nine columns of a row-wise stack of 3 by 3 matrices, listed in the order `(0,0), (0,1), …, (2,2)`. -/
def nineColumns {a : ℕ} (M : Fin 3 → Fin 3 → ((⟨2, ![a, 1]⟩ : Shape).Idx → α)) : List ((s : Shape) × (s.Idx → α)) :=
  [⟨⟨2, ![a, 1]⟩, M 0 0⟩, ⟨⟨2, ![a, 1]⟩, M 0 1⟩, ⟨⟨2, ![a, 1]⟩, M 0 2⟩,
   ⟨⟨2, ![a, 1]⟩, M 1 0⟩, ⟨⟨2, ![a, 1]⟩, M 1 1⟩, ⟨⟨2, ![a, 1]⟩, M 1 2⟩,
   ⟨⟨2, ![a, 1]⟩, M 2 0⟩, ⟨⟨2, ![a, 1]⟩, M 2 1⟩, ⟨⟨2, ![a, 1]⟩, M 2 2⟩]

/-- Nine one-entry-wide columns joined side by side: column `k` of the result, in row `r`, is the `k`-th column's entry
    in row `r` (the columns before it take up `k` positions). -/
theorem nineColumns_apply {a : ℕ} (M : Fin 3 → Fin 3 → ((⟨2, ![a, 1]⟩ : Shape).Idx → α))
    (hcat : Shape.Concatenates ((nineColumns M).map (·.1)) ⟨2, ![a, 9]⟩ 1) (r : Fin a)
    (k : ℕ) (hk : k < 9) (hk' : k < (nineColumns M).length) (x₁ : (⟨2, ![a, 1]⟩ : Shape).Idx → α)
    (hx : (nineColumns M)[k] = ⟨⟨2, ![a, 1]⟩, x₁⟩)
    (hpre : ((((nineColumns M).take k).map (·.1)).map fun s : Shape =>
      if h : s.rank = (⟨2, ![a, 9]⟩ : Shape).rank then s.size ((1 : Fin (⟨2, ![a, 9]⟩ : Shape).rank).cast h.symm) else 0).sum = k) :
    concatenate ⟨2, ![a, 9]⟩ 1 (nineColumns M) hcat (ix2 r ⟨k, hk⟩) = x₁ (ix2 r (0 : Fin 1)) :=
  concatenate_apply_piece (1 : Fin (⟨2, ![a, 9]⟩ : Shape).rank) (nineColumns M) hcat (ix2 r ⟨k, hk⟩) k hk' _ x₁ hx rfl k hpre
    (ix2 r (0 : Fin 1))
    (fun b hb => by
      match b with
      | ⟨0, _⟩ => rfl
      | ⟨1, _⟩ => exact absurd rfl hb)
    (by show k + 0 = k; rfl)

/-- Those nine columns regrouped as a stack of 3 by 3 matrices: the entry `(i, j)` of the matrix in row `r` is column
    `M i j` in row `r`. -/
theorem stack3x3_of_columns {a : ℕ} (M : Fin 3 → Fin 3 → ((⟨2, ![a, 1]⟩ : Shape).Idx → α))
    (hcat : Shape.Concatenates ((nineColumns M).map (·.1)) ⟨2, ![a, 9]⟩ 1)
    (hcast : (⟨2, ![a, 9]⟩ : Shape).ShapeCasts ⟨3, ![a, 3, 3]⟩) (r : Fin a) (i j : Fin 3) :
    shapeCast ⟨3, ![a, 3, 3]⟩ (concatenate ⟨2, ![a, 9]⟩ 1 (nineColumns M) hcat) hcast (ix3 r i j)
      = M i j (ix2 r (0 : Fin 1)) := by
  have hq : i.val * 3 + j.val < 9 := by have := i.isLt; have := j.isLt; omega
  rw [shapeCast_an_abc_apply _ hcast (by norm_num) r i j ⟨i.val * 3 + j.val, hq⟩ rfl]
  match i, j with
  | ⟨0, _⟩, ⟨0, _⟩ => exact nineColumns_apply M hcat r 0 (by norm_num) (by show (0 : ℕ) < 9; norm_num) _ rfl rfl
  | ⟨0, _⟩, ⟨1, _⟩ => exact nineColumns_apply M hcat r 1 (by norm_num) (by show (1 : ℕ) < 9; norm_num) _ rfl rfl
  | ⟨0, _⟩, ⟨2, _⟩ => exact nineColumns_apply M hcat r 2 (by norm_num) (by show (2 : ℕ) < 9; norm_num) _ rfl rfl
  | ⟨1, _⟩, ⟨0, _⟩ => exact nineColumns_apply M hcat r 3 (by norm_num) (by show (3 : ℕ) < 9; norm_num) _ rfl rfl
  | ⟨1, _⟩, ⟨1, _⟩ => exact nineColumns_apply M hcat r 4 (by norm_num) (by show (4 : ℕ) < 9; norm_num) _ rfl rfl
  | ⟨1, _⟩, ⟨2, _⟩ => exact nineColumns_apply M hcat r 5 (by norm_num) (by show (5 : ℕ) < 9; norm_num) _ rfl rfl
  | ⟨2, _⟩, ⟨0, _⟩ => exact nineColumns_apply M hcat r 6 (by norm_num) (by show (6 : ℕ) < 9; norm_num) _ rfl rfl
  | ⟨2, _⟩, ⟨1, _⟩ => exact nineColumns_apply M hcat r 7 (by norm_num) (by show (7 : ℕ) < 9; norm_num) _ rfl rfl
  | ⟨2, _⟩, ⟨2, _⟩ => exact nineColumns_apply M hcat r 8 (by norm_num) (by show (8 : ℕ) < 9; norm_num) _ rfl rfl

end Cert.Lib.RowRecords
-- ==== Proof.KernelBlock.lean ====
/-
  What one grid point leaves in the output block.

  The body loads the point's `[8192, 6]` block of parameters, takes its six columns out as vectors (angles `ax, ay, az`
  in columns 0–2, the translation in columns 3–5), computes the sines and cosines of the angles, and writes the twelve
  entries of `[R | t]` one output column at a time, each a one-entry-wide `[8192, 1]` store. Every store's value is, row
  by row, the corresponding entry of `affineRow` of that row's six parameters, and the twelve columns tile the
  `[8192, 12]` block; so the block the body leaves is `rows` of the block it loaded.
-/
import proofs.«173773_j74208444940704_2_alg».proof.Proof.Gen.KernelIdeal.Frame
import proofs.«173773_j74208444940704_2_alg».proof.Proof.AffineRow
import proofs.«173773_j74208444940704_2_alg».proof.Proof.LibColumnLayout
import proofs.«173773_j74208444940704_2_alg».proof.Proof.LibRowRecords
import Idealize.ShloMosaic.Lib.Pipeline.Value
import Idealize.ShloMosaic.PureOps.Ideal.Laws

set_option maxRecDepth 16384

noncomputable section

namespace Cert.EulerAffine.Kernel

open Idealize.ShloMosaic Idealize.ShloMosaic.ValueIdx Cert.KernelIdeal Cert.KernelIdeal.Gen
open Cert.Lib.ColumnLayout Cert.Lib.RowRecords Cert.EulerAffine

/-! ## The six columns of the loaded block, and their sines and cosines -/

variable (x0 : FVec Ideal S8192x6 .f32) (p : Fin 8192)

theorem angle_x : k0_pay1 (F := Ideal) x0 (ix1 p) = x0 (ix2 p 0) := by
  unfold k0_pay1; exact column_apply 0 x0 _ _ p 0 rfl
theorem angle_y : k0_pay2 (F := Ideal) x0 (ix1 p) = x0 (ix2 p 1) := by
  unfold k0_pay2; exact column_apply 1 x0 _ _ p 1 rfl
theorem angle_z : k0_pay3 (F := Ideal) x0 (ix1 p) = x0 (ix2 p 2) := by
  unfold k0_pay3; exact column_apply 2 x0 _ _ p 2 rfl
theorem shift_y : k0_pay4 (F := Ideal) x0 (ix1 p) = x0 (ix2 p 4) := by
  unfold k0_pay4; exact column_apply 4 x0 _ _ p 4 rfl
theorem shift_z : k0_pay5 (F := Ideal) x0 (ix1 p) = x0 (ix2 p 5) := by
  unfold k0_pay5; exact column_apply 5 x0 _ _ p 5 rfl

theorem cos_x : k0_pay6 (F := Ideal) x0 (ix1 p) = Ideal.cos (x0 (ix2 p 0)) := congrArg Ideal.cos (angle_x x0 p)
theorem sin_x : k0_pay7 (F := Ideal) x0 (ix1 p) = Ideal.sin (x0 (ix2 p 0)) := congrArg Ideal.sin (angle_x x0 p)
theorem cos_y : k0_pay8 (F := Ideal) x0 (ix1 p) = Ideal.cos (x0 (ix2 p 1)) := congrArg Ideal.cos (angle_y x0 p)
theorem sin_y : k0_pay9 (F := Ideal) x0 (ix1 p) = Ideal.sin (x0 (ix2 p 1)) := congrArg Ideal.sin (angle_y x0 p)
theorem cos_z : k0_pay10 (F := Ideal) x0 (ix1 p) = Ideal.cos (x0 (ix2 p 2)) := congrArg Ideal.cos (angle_z x0 p)
theorem sin_z : k0_pay11 (F := Ideal) x0 (ix1 p) = Ideal.sin (x0 (ix2 p 2)) := congrArg Ideal.sin (angle_z x0 p)

/-! ## The twelve stored columns, row by row -/

variable (u : Fin 1)

/-- Column 0: `cy cz`. -/
theorem col0 : k0_pay12 (F := Ideal) x0 (ix2 p u) = Ideal.cos (x0 (ix2 p 1)) * Ideal.cos (x0 (ix2 p 2)) := by
  unfold k0_pay12
  rw [shapeCast_a_a1_apply, mulf_apply, cos_y, cos_z]

/-- Column 1: `(0 - cy) sz`. -/
theorem col1 : k0_pay13 (F := Ideal) x0 (ix2 p u) = (0 - Ideal.cos (x0 (ix2 p 1))) * Ideal.sin (x0 (ix2 p 2)) := by
  unfold k0_pay13
  rw [shapeCast_a_a1_apply, mulf_apply, subf_apply, cos_y, sin_z, broadcast_apply]
  show (Ideal.ofBits .f32 0x00000000#32 - _) * _ = _
  rw [Ideal.ofBits_zero_f32]

/-- Column 2: `sy`. -/
theorem col2 : k0_pay14 (F := Ideal) x0 (ix2 p u) = Ideal.sin (x0 (ix2 p 1)) := by
  unfold k0_pay14
  rw [shapeCast_a_a1_apply, sin_y]

/-- Column 3: `tx`, the block's column 3 passed through. -/
theorem col3 : k0_pay15 (F := Ideal) x0 (ix2 p u) = x0 (ix2 p 3) := by
  unfold k0_pay15
  rw [shapeCast_a_a1_apply]
  exact column_apply 3 x0 _ _ p 3 rfl

/-- Column 4: `cx sz + sx sy cz`. -/
theorem col4 : k0_pay16 (F := Ideal) x0 (ix2 p u) = Ideal.cos (x0 (ix2 p 0)) * Ideal.sin (x0 (ix2 p 2))
    + Ideal.sin (x0 (ix2 p 0)) * Ideal.sin (x0 (ix2 p 1)) * Ideal.cos (x0 (ix2 p 2)) := by
  unfold k0_pay16
  rw [shapeCast_a_a1_apply, addf_apply, mulf_apply, mulf_apply, mulf_apply, cos_x, sin_z, sin_x, sin_y, cos_z]

/-! The remaining stores take the sines and cosines as vectors computed earlier in the body. -/

variable (cx sx cy sy cz sz t : FVec Ideal S8192 .f32)

/-- Column 5: `cx cz - sx sy sz`. -/
theorem col5 : k0_pay17 (F := Ideal) cx sx sy cz sz (ix2 p u)
    = cx (ix1 p) * cz (ix1 p) - sx (ix1 p) * sy (ix1 p) * sz (ix1 p) := by
  unfold k0_pay17
  rw [shapeCast_a_a1_apply]; rfl

/-- Column 6: `(0 - sx) cy`. -/
theorem col6 : k0_pay18 (F := Ideal) sx cy (ix2 p u) = (0 - sx (ix1 p)) * cy (ix1 p) := by
  unfold k0_pay18
  rw [shapeCast_a_a1_apply, mulf_apply, subf_apply, broadcast_apply]
  show (Ideal.ofBits .f32 0x00000000#32 - _) * _ = _
  rw [Ideal.ofBits_zero_f32]

/-- Columns 7 and 11: a vector passed through (`ty`, `tz`). -/
theorem col7 : k0_pay19 (F := Ideal) t (ix2 p u) = t (ix1 p) := by
  unfold k0_pay19
  rw [shapeCast_a_a1_apply]
theorem col11 : k0_pay23 (F := Ideal) t (ix2 p u) = t (ix1 p) := by
  unfold k0_pay23
  rw [shapeCast_a_a1_apply]

/-- Column 8: `sx sz - cx sy cz`. -/
theorem col8 : k0_pay20 (F := Ideal) cx sx sy cz sz (ix2 p u)
    = sx (ix1 p) * sz (ix1 p) - cx (ix1 p) * sy (ix1 p) * cz (ix1 p) := by
  unfold k0_pay20
  rw [shapeCast_a_a1_apply]; rfl

/-- Column 9: `sx cz + cx sy sz`. -/
theorem col9 : k0_pay21 (F := Ideal) cx sx sy cz sz (ix2 p u)
    = sx (ix1 p) * cz (ix1 p) + cx (ix1 p) * sy (ix1 p) * sz (ix1 p) := by
  unfold k0_pay21
  rw [shapeCast_a_a1_apply]; rfl

/-- Column 10: `cx cy`. -/
theorem col10 : k0_pay22 (F := Ideal) cx cy (ix2 p u) = cx (ix1 p) * cy (ix1 p) := by
  unfold k0_pay22
  rw [shapeCast_a_a1_apply]; rfl

/-! ## The block the body leaves -/

theorem zero_offsets : (![0, 0] : Fin 2 → ℕ) = fun _ => 0 := funext fun a => by fin_cases a <;> rfl

/-- A one-entry-wide store at column `k` of the `[8192, 12]` block puts its row `p` at `(p, k)`. -/
theorem emb_column (off : Fin 2 → ℕ) (inb : ∀ a, off a + S8192x1.size a ≤ S8192x12.size a) (k : Fin 12)
    (h0 : off 0 = 0) (h1 : off 1 = k.val) (p : Fin 8192) (u : Fin 1) :
    (Rect.unit (s := S8192x12) off S8192x1.size inb).emb (ix2 p u) = ix2 p k := by
  funext a; apply Fin.ext
  match a with
  | ⟨0, _⟩ => show off 0 + 1 * p.val = p.val; rw [h0]; omega
  | ⟨1, _⟩ => show off 1 + 1 * u.val = k.val; rw [h1]; have := u.isLt; omega

/-- THE OUTPUT BLOCK: what the body's twelve column stores leave is, entry by entry, the affine row of each row of the
    block it loaded. Each store's value agrees with `rows x0` on its column, and the columns cover the block. -/
theorem block_eq (x0 : Vec Ideal S8192x6 .f32) : out0_1 x0 = rows x0 := by
  funext y
  unfold out0_1
  simp only [View.ld_unit_zero (S := S8192x6) zero_offsets]
  refine View.canon_apply_of_pieces (Val := Elt Ideal) (rows x0) _ ?_ y (cover0_1 _ _ _ _ _ _ _ _ _ _ _ _ y)
  intro pc hpc
  simp only [List.mem_cons, List.not_mem_nil, or_false] at hpc
  rcases hpc with rfl | rfl | rfl | rfl | rfl | rfl | rfl | rfl | rfl | rfl | rfl | rfl <;> intro x <;>
    obtain ⟨p, u, rfl⟩ : ∃ (p : Fin 8192) (u : Fin 1), x = ix2 p u := ⟨x 0, x 1, eq_ix2 x⟩
  · show k0_pay23 (F := Ideal) (k0_pay5 (F := Ideal) x0) (ix2 p u) = rows x0 (r0_12.emb (ix2 p u))
    rw [emb_column _ _ 11 rfl rfl, rows_apply, affineRow_11, col11, shift_z]
  · show k0_pay22 (F := Ideal) (k0_pay6 (F := Ideal) x0) (k0_pay8 (F := Ideal) x0) (ix2 p u) = rows x0 (r0_11.emb (ix2 p u))
    rw [emb_column _ _ 10 rfl rfl, rows_apply, affineRow_10, col10, cos_x, cos_y]
  · show k0_pay21 (F := Ideal) (k0_pay6 (F := Ideal) x0) (k0_pay7 (F := Ideal) x0) (k0_pay9 (F := Ideal) x0) (k0_pay10 (F := Ideal) x0) (k0_pay11 (F := Ideal) x0) (ix2 p u) = rows x0 (r0_10.emb (ix2 p u))
    rw [emb_column _ _ 9 rfl rfl, rows_apply, affineRow_9, col9, cos_x, sin_x, sin_y, cos_z, sin_z]
  · show k0_pay20 (F := Ideal) (k0_pay6 (F := Ideal) x0) (k0_pay7 (F := Ideal) x0) (k0_pay9 (F := Ideal) x0) (k0_pay10 (F := Ideal) x0) (k0_pay11 (F := Ideal) x0) (ix2 p u) = rows x0 (r0_9.emb (ix2 p u))
    rw [emb_column _ _ 8 rfl rfl, rows_apply, affineRow_8, col8, cos_x, sin_x, sin_y, cos_z, sin_z]
  · show k0_pay19 (F := Ideal) (k0_pay4 (F := Ideal) x0) (ix2 p u) = rows x0 (r0_8.emb (ix2 p u))
    rw [emb_column _ _ 7 rfl rfl, rows_apply, affineRow_7, col7, shift_y]
  · show k0_pay18 (F := Ideal) (k0_pay7 (F := Ideal) x0) (k0_pay8 (F := Ideal) x0) (ix2 p u) = rows x0 (r0_7.emb (ix2 p u))
    rw [emb_column _ _ 6 rfl rfl, rows_apply, affineRow_6, col6, sin_x, cos_y]
  · show k0_pay17 (F := Ideal) (k0_pay6 (F := Ideal) x0) (k0_pay7 (F := Ideal) x0) (k0_pay9 (F := Ideal) x0) (k0_pay10 (F := Ideal) x0) (k0_pay11 (F := Ideal) x0) (ix2 p u) = rows x0 (r0_6.emb (ix2 p u))
    rw [emb_column _ _ 5 rfl rfl, rows_apply, affineRow_5, col5, cos_x, sin_x, sin_y, cos_z, sin_z]
  · show k0_pay16 (F := Ideal) x0 (ix2 p u) = rows x0 (r0_5.emb (ix2 p u))
    rw [emb_column _ _ 4 rfl rfl, rows_apply, affineRow_4, col4]
  · show k0_pay15 (F := Ideal) x0 (ix2 p u) = rows x0 (r0_4.emb (ix2 p u))
    rw [emb_column _ _ 3 rfl rfl, rows_apply, affineRow_3, col3]
  · show k0_pay14 (F := Ideal) x0 (ix2 p u) = rows x0 (r0_3.emb (ix2 p u))
    rw [emb_column _ _ 2 rfl rfl, rows_apply, affineRow_2, col2]
  · show k0_pay13 (F := Ideal) x0 (ix2 p u) = rows x0 (r0_2.emb (ix2 p u))
    rw [emb_column _ _ 1 rfl rfl, rows_apply, affineRow_1, col1]
  · show k0_pay12 (F := Ideal) x0 (ix2 p u) = rows x0 (r0_1.emb (ix2 p u))
    rw [emb_column _ _ 0 rfl rfl, rows_apply, affineRow_0, col0]

end Cert.EulerAffine.Kernel
-- ==== Proof.KernelArray.lean ====
/-
  From the blocks to the whole array.

  Grid point `t` (of 512) reads rows `8192 t … 8192 t + 8191` of the `[4194304, 6]` parameters and writes the same rows
  of the `[4194304, 12]` result: both windows' blocks sit at block index `(t, 0)`. `rows` works row by row, so the block
  a point writes back is the block of `rows` of the whole parameter array; the 512 blocks cover every row (row `r` is in
  block `r / 8192`); hence after the run the result array is `rows` of the parameter array.
-/
import proofs.«173773_j74208444940704_2_alg».proof.Proof.Gen.KernelIdeal.Value
import proofs.«173773_j74208444940704_2_alg».proof.Proof.KernelBlock

set_option maxRecDepth 16384

noncomputable section

namespace Cert.EulerAffine.Kernel

open Idealize.ShloMosaic Idealize.ShloMosaic.TcCoe Idealize.ShloMosaic.ValueIdx Idealize.SL.Sem
open Cert.KernelIdeal Cert.KernelIdeal.Gen Cert.EulerAffine
open Idealize.ShloMosaic.Pipeline (Dat)

/-- `rows` of a block is the block of `rows`: if the block's row `y 0` is the array's row `r` (entry by entry) and the
    array index `i` is `(r, y 1)`, the two affine-row entries are the same. -/
theorem rows_of_block {N : ℕ} (X : (⟨2, ![N, 6]⟩ : Shape).Idx → EReal) (x0 : (⟨2, ![8192, 6]⟩ : Shape).Idx → EReal)
    (y : (⟨2, ![8192, 12]⟩ : Shape).Idx) (i : (⟨2, ![N, 12]⟩ : Shape).Idx) (r : Fin N)
    (hx : ∀ k : Fin 6, x0 (ix2 (y 0 : Fin 8192) k) = X (ix2 r k)) (hi0 : (i 0).val = r.val) (hi1 : (i 1).val = (y 1).val) :
    rows x0 y = rows X i := by
  have e0 : (i 0 : Fin N) = r := Fin.ext hi0
  have e1 : (i 1 : Fin 12) = (y 1 : Fin 12) := Fin.ext hi1
  unfold rows
  rw [e0, e1, hx 0, hx 1, hx 2, hx 3, hx 4, hx 5]

variable (m : (ℓ : Loc nD τ sig) → Buf (Elt Ideal) ℓ) (ρ : Dev nD → PrngReg)

/-- Both windows' block at point `t` is block `(t, 0)` of their array (decided over the 512 points). -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- WHAT POINT `t` WRITES BACK is block `t` of `rows` of the parameter array as the region finds it. -/
theorem flushed_eq (c : Dev nD) (t : Fin cfg0.N) :
    (dats m 0 c).flushed 1 t = ((cfg0.win 1).blk t).view.read (Elt Ideal) (rows (n := 4194304) (V m c main_arg0)) := by
  rw [Cert.KernelIdeal.Value.flushed1, block_eq]
  obtain ⟨a0, a1, b0, b1⟩ := block_index t
  have ht : t.val < 512 := t.isLt
  funext j
  have hj0 : (j 0).val < 8192 := (j 0).isLt
  show rows (n := 8192) (iblk m c 0 t) j = rows (n := 4194304) (V m c main_arg0) (((cfg0.win 1).blk t).view.emb j)
  refine rows_of_block (V m c main_arg0) (iblk m c 0 t) j _ ⟨t.val * 8192 + (j 0).val, by omega⟩ (fun k => ?_) ?_ ?_
  · show V m c main_arg0 (((cfg0.win 0).blk t).view.emb (ix2 (j 0 : Fin 8192) k)) = V m c main_arg0 _
    refine congrArg _ (funext fun a => Fin.ext ?_)
    match a with
    | ⟨0, _⟩ => show win0_0.index t (0 : Fin 2) * 8192 + 1 * (j 0).val = t.val * 8192 + (j 0).val; rw [a0]; omega
    | ⟨1, _⟩ => show win0_0.index t (1 : Fin 2) * 6 + 1 * k.val = k.val; rw [a1]; omega
  · show win0_1.index t (0 : Fin 2) * 8192 + 1 * (j 0).val = t.val * 8192 + (j 0).val; rw [b0]; omega
  · show win0_1.index t (1 : Fin 2) * 12 + 1 * (j 1).val = (j 1).val; rw [b1]; omega

/-- An index of the result array is in point `t`'s block iff each coordinate is in the block's range on its axis. -/
theorem mem_blk (t : Fin cfg0.N) (i : S4194304x12.Idx) :
    i ∈ ((cfg0.win 1).blk t).view.set ↔ ∀ a : Fin 2, win0_1.index t a * S8192x12.size a ≤ (i a).val
      ∧ (i a).val < win0_1.index t a * S8192x12.size a + S8192x12.size a := by
  show i ∈ ((View.whole main_v0).slice (win0_1.rect t)).set ↔ _
  rw [View.set_slice_whole, Rect.mem_set_unit]
  exact Iff.rfl

/-- Every row of the result is in some point's block: row `r` in block `r / 8192`. -/
theorem covered (i : S4194304x12.Idx) :
    ∃ t : Fin cfg0.N, (cfg0.win 1).flush t = true ∧ i ∈ ((cfg0.win 1).blk t).view.set := by
  have hi0 : (i 0).val < 4194304 := (i 0).isLt
  have hi1 : (i 1).val < 12 := (i 1).isLt
  refine ⟨⟨(i 0).val / 8192, by show (i 0).val / 8192 < 512; omega⟩, flush0_1 _, ?_⟩
  rw [mem_blk]
  obtain ⟨-, -, b0, b1⟩ := block_index ⟨(i 0).val / 8192, by show (i 0).val / 8192 < 512; omega⟩
  intro a
  match a with
  | ⟨0, _⟩ =>
    show win0_1.index _ (0 : Fin 2) * 8192 ≤ (i 0).val ∧ (i 0).val < win0_1.index _ (0 : Fin 2) * 8192 + 8192
    rw [b0]; show (i 0).val / 8192 * 8192 ≤ (i 0).val ∧ (i 0).val < (i 0).val / 8192 * 8192 + 8192; omega
  | ⟨1, _⟩ =>
    show win0_1.index _ (1 : Fin 2) * 12 ≤ (i 1).val ∧ (i 1).val < win0_1.index _ (1 : Fin 2) * 12 + 12
    rw [b1]; omega

/-- THE RESULT ARRAY after the run: `rows` of the parameter array. -/
theorem final (c : Dev nD) :
    (dats m 0 c).arrAt 1 cfg0.N = rows (n := 4194304) (m ((c : Thread nD τ).loc main_arg0)) :=
  (dats m 0 c).arrAt_eq_of_cover 1 (rows (n := 4194304) (V m c main_arg0)) (fun t _ => flushed_eq m c t) covered

/-- The kernel's run, read: the result array is `rows` of the parameters, the parameters unchanged. -/
theorem run : θ_run defs (onTc (τ := τ) (main (F := Ideal))) ⟨m, fun _ => 0, ρ⟩ fun r => ∀ c : Dev nD,
      r.2.mem ((c : Thread nD τ).loc main_v0) = rows (n := 4194304) (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Cert.KernelIdeal.Value.run_blocks m ρ)

end Cert.EulerAffine.Kernel
-- ==== Proof.RotationProduct.lean ====
/-
  The closed form of `Rx(ax) · Ry(ay) · Rz(az)` is the product.

  `rotation_product` says that for FINITE angles entry `(i, l)` of the triple product, summed in the order
  `Σ_k (Σ_j Ry[j,k] · Rx[i,j]) · Rz[k,l]`, is entry `4 i + l` of `affineRow`. On the extended reals the sine and cosine of
  an infinity are not numbers, and `0 · ∞`, `∞ - ∞` do not obey the ring laws, so finiteness is what makes the expansion
  valid: with real angles every factor is a real number — the zeros and ones of the three rotations included — and the
  two sides are one polynomial in the six sines and cosines.
-/
import proofs.«173773_j74208444940704_2_alg».proof.Proof.AffineRow

noncomputable section

namespace Cert.EulerAffine

open Idealize.ShloMosaic

/-- The rotation about the first axis, as a table of extended reals. -/
def rotX (a : EReal) : Fin 3 → Fin 3 → EReal :=
  ![![1, 0, 0], ![0, Ideal.cos a, -Ideal.sin a], ![0, Ideal.sin a, Ideal.cos a]]

/-- The rotation about the second axis. -/
def rotY (a : EReal) : Fin 3 → Fin 3 → EReal :=
  ![![Ideal.cos a, 0, Ideal.sin a], ![0, 1, 0], ![-Ideal.sin a, 0, Ideal.cos a]]

/-- The rotation about the third axis. -/
def rotZ (a : EReal) : Fin 3 → Fin 3 → EReal :=
  ![![Ideal.cos a, -Ideal.sin a, 0], ![Ideal.sin a, Ideal.cos a, 0], ![0, 0, 1]]

/-- For real angles, entry `(i, l)` of `Rx · Ry · Rz`, summed as `Σ_k (Σ_j Ry[j,k] · Rx[i,j]) · Rz[k,l]`, is entry
    `4 i + l` of the affine row: every factor is a real number, and the two sides are one polynomial in the six sines and
    cosines. -/
theorem rotation_product (ax ay az : ℝ) (tx ty tz : EReal) (i l : Fin 3) (q : Fin 12) (hq : q.val = 4 * i.val + l.val) :
    (∑ k : Fin 3, (∑ j : Fin 3, rotY (ay : EReal) j k * rotX (ax : EReal) i j) * rotZ (az : EReal) k l)
      = affineRow (ax : EReal) (ay : EReal) (az : EReal) tx ty tz q := by
  have hlt : 4 * i.val + l.val < 12 := by clear hq; have := i.isLt; have := l.isLt; omega
  obtain rfl : q = ⟨4 * i.val + l.val, hlt⟩ := Fin.ext hq
  fin_cases i <;> fin_cases l <;>
    simp [Fin.sum_univ_three, rotX, rotY, rotZ, affineRow] <;>
    (norm_cast; ring)

end Cert.EulerAffine
-- ==== Proof.ReferenceRows.lean ====
/-
  The reference, read row by row.

  The reference takes the three angle columns of the `[4194304, 6]` parameters, forms their sines and cosines, lays out
  the three rotations `Rx, Ry, Rz` as stacks of 3 by 3 matrices — each from nine columns (a sine, a cosine, a negated
  sine, a zero or a one, broadcast down the rows) joined side by side and regrouped —, multiplies them by two batched
  contractions (`T[r,k,i] = Σ_j Ry[r,j,k] · Rx[r,i,j]`, then `R[r,i,l] = Σ_k T[r,k,i] · Rz[r,k,l]`), appends the three
  translation columns as a fourth column of each row's 3 by 4 table, and flattens the tables to rows of twelve.
  Entry by entry that is `rows` of the parameters, PROVIDED the angles are finite: `rotation_product` is the step that
  needs it.
-/
import proofs.«173773_j74208444940704_2_alg».proof.Proof.Gen.ReferenceIdeal.Read
import proofs.«173773_j74208444940704_2_alg».proof.Proof.AffineRow
import proofs.«173773_j74208444940704_2_alg».proof.Proof.RotationProduct
import proofs.«173773_j74208444940704_2_alg».proof.Proof.LibRowRecords
import Idealize.ShloMosaic.PureOps.Ideal.Laws

set_option maxRecDepth 16384

noncomputable section

namespace Cert.EulerAffine.Reference

open Idealize.ShloMosaic Idealize.ShloMosaic.ValueIdx
open Cert.ReferenceIdeal Cert.ReferenceIdeal.Gen Cert.ReferenceIdeal.Read
open Cert.Lib.RowRecords Cert.EulerAffine

variable (x : FVec Ideal S4194304x6 .f32) (r : Fin 4194304)

/-! ## The angle columns, their sines and cosines, and the two constants -/

theorem angle_x : val_main_v1 (F := Ideal) x (ix1 r) = x (ix2 r 0) := by
  unfold val_main_v1 val_main_v0; exact column_apply 0 x _ _ r 0 rfl
theorem angle_y : val_main_v3 (F := Ideal) x (ix1 r) = x (ix2 r 1) := by
  unfold val_main_v3 val_main_v2; exact column_apply 1 x _ _ r 1 rfl
theorem angle_z : val_main_v5 (F := Ideal) x (ix1 r) = x (ix2 r 2) := by
  unfold val_main_v5 val_main_v4; exact column_apply 2 x _ _ r 2 rfl

theorem cos_x : val_main_v7 (F := Ideal) x (ix1 r) = Ideal.cos (x (ix2 r 0)) := congrArg Ideal.cos (angle_x x r)
theorem sin_x : val_main_v8 (F := Ideal) x (ix1 r) = Ideal.sin (x (ix2 r 0)) := congrArg Ideal.sin (angle_x x r)
theorem cos_y : val_main_v9 (F := Ideal) x (ix1 r) = Ideal.cos (x (ix2 r 1)) := congrArg Ideal.cos (angle_y x r)
theorem sin_y : val_main_v10 (F := Ideal) x (ix1 r) = Ideal.sin (x (ix2 r 1)) := congrArg Ideal.sin (angle_y x r)
theorem cos_z : val_main_v11 (F := Ideal) x (ix1 r) = Ideal.cos (x (ix2 r 2)) := congrArg Ideal.cos (angle_z x r)
theorem sin_z : val_main_v12 (F := Ideal) x (ix1 r) = Ideal.sin (x (ix2 r 2)) := congrArg Ideal.sin (angle_z x r)
theorem neg_sin_x : val_main_v15 (F := Ideal) x (ix1 r) = -Ideal.sin (x (ix2 r 0)) := congrArg Neg.neg (sin_x x r)
theorem neg_sin_y : val_main_v27 (F := Ideal) x (ix1 r) = -Ideal.sin (x (ix2 r 1)) := congrArg Neg.neg (sin_y x r)
theorem neg_sin_z : val_main_v39 (F := Ideal) x (ix1 r) = -Ideal.sin (x (ix2 r 2)) := congrArg Neg.neg (sin_z x r)

/-- The float word of `1.0` is the number one. -/
theorem one_word : Ideal.ofBits .f32 0x3F800000#32 = 1 := by
  simp [Ideal.ofBits, Ideal.ieee]
  norm_cast
  norm_num

theorem zeros : val_main_v13 (F := Ideal) (ix1 r) = 0 := (val_main_v13_apply _).trans Ideal.ofBits_zero_f32
theorem ones : val_main_v14 (F := Ideal) (ix1 r) = 1 := (val_main_v14_apply _).trans one_word

/-- A vector broadcast down the rows of a one-entry-wide column reads, in row `r`, its entry `r`. -/
theorem column_of (v : FVec Ideal S4194304 .f32) (u : Fin 1) :
    broadcastInDim S4194304x1 ![0] bcast_S4194304_S4194304x1_0 v (ix2 r u) = v (ix1 r) :=
  broadcastInDim_a_a1_apply v _ rfl _ r u

/-! ## The three stacks of rotation matrices -/

/-- The nine columns the reference joins into `Rx`, `Ry`, `Rz`, as 3 by 3 tables of columns. -/
def colsX : Fin 3 → Fin 3 → ((⟨2, ![4194304, 1]⟩ : Shape).Idx → EReal) :=
  ![![val_main_v16 (F := Ideal), val_main_v17 (F := Ideal), val_main_v18 (F := Ideal)],
    ![val_main_v19 (F := Ideal), val_main_v20 (F := Ideal) x, val_main_v21 (F := Ideal) x],
    ![val_main_v22 (F := Ideal), val_main_v23 (F := Ideal) x, val_main_v24 (F := Ideal) x]]
def colsY : Fin 3 → Fin 3 → ((⟨2, ![4194304, 1]⟩ : Shape).Idx → EReal) :=
  ![![val_main_v28 (F := Ideal) x, val_main_v29 (F := Ideal), val_main_v30 (F := Ideal) x],
    ![val_main_v31 (F := Ideal), val_main_v32 (F := Ideal), val_main_v33 (F := Ideal)],
    ![val_main_v34 (F := Ideal) x, val_main_v35 (F := Ideal), val_main_v36 (F := Ideal) x]]
def colsZ : Fin 3 → Fin 3 → ((⟨2, ![4194304, 1]⟩ : Shape).Idx → EReal) :=
  ![![val_main_v40 (F := Ideal) x, val_main_v41 (F := Ideal) x, val_main_v42 (F := Ideal)],
    ![val_main_v43 (F := Ideal) x, val_main_v44 (F := Ideal) x, val_main_v45 (F := Ideal)],
    ![val_main_v46 (F := Ideal), val_main_v47 (F := Ideal), val_main_v48 (F := Ideal)]]

variable (i j : Fin 3)

theorem stackX : val_main_v26 (F := Ideal) x (ix3 r i j) = colsX x i j (ix2 r 0) := by
  unfold val_main_v26 val_main_v25
  exact stack3x3_of_columns (colsX x) _ _ r i j
theorem stackY : val_main_v38 (F := Ideal) x (ix3 r i j) = colsY x i j (ix2 r 0) := by
  unfold val_main_v38 val_main_v37
  exact stack3x3_of_columns (colsY x) _ _ r i j
theorem stackZ : val_main_v50 (F := Ideal) x (ix3 r i j) = colsZ x i j (ix2 r 0) := by
  unfold val_main_v50 val_main_v49
  exact stack3x3_of_columns (colsZ x) _ _ r i j

/-- Row `r` of the nine columns of `Rx` is the rotation about the first axis by that row's first angle. -/
theorem entriesX : colsX x i j (ix2 r 0) = rotX (x (ix2 r 0)) i j :=
  match i, j with
  | ⟨0, _⟩, ⟨0, _⟩ => (column_of r _ 0).trans (ones r)
  | ⟨0, _⟩, ⟨1, _⟩ => (column_of r _ 0).trans (zeros r)
  | ⟨0, _⟩, ⟨2, _⟩ => (column_of r _ 0).trans (zeros r)
  | ⟨1, _⟩, ⟨0, _⟩ => (column_of r _ 0).trans (zeros r)
  | ⟨1, _⟩, ⟨1, _⟩ => (column_of r _ 0).trans (cos_x x r)
  | ⟨1, _⟩, ⟨2, _⟩ => (column_of r _ 0).trans (neg_sin_x x r)
  | ⟨2, _⟩, ⟨0, _⟩ => (column_of r _ 0).trans (zeros r)
  | ⟨2, _⟩, ⟨1, _⟩ => (column_of r _ 0).trans (sin_x x r)
  | ⟨2, _⟩, ⟨2, _⟩ => (column_of r _ 0).trans (cos_x x r)

/-- Row `r` of the nine columns of `Ry` is the rotation about the second axis by that row's second angle. -/
theorem entriesY : colsY x i j (ix2 r 0) = rotY (x (ix2 r 1)) i j :=
  match i, j with
  | ⟨0, _⟩, ⟨0, _⟩ => (column_of r _ 0).trans (cos_y x r)
  | ⟨0, _⟩, ⟨1, _⟩ => (column_of r _ 0).trans (zeros r)
  | ⟨0, _⟩, ⟨2, _⟩ => (column_of r _ 0).trans (sin_y x r)
  | ⟨1, _⟩, ⟨0, _⟩ => (column_of r _ 0).trans (zeros r)
  | ⟨1, _⟩, ⟨1, _⟩ => (column_of r _ 0).trans (ones r)
  | ⟨1, _⟩, ⟨2, _⟩ => (column_of r _ 0).trans (zeros r)
  | ⟨2, _⟩, ⟨0, _⟩ => (column_of r _ 0).trans (neg_sin_y x r)
  | ⟨2, _⟩, ⟨1, _⟩ => (column_of r _ 0).trans (zeros r)
  | ⟨2, _⟩, ⟨2, _⟩ => (column_of r _ 0).trans (cos_y x r)

/-- Row `r` of the nine columns of `Rz` is the rotation about the third axis by that row's third angle. -/
theorem entriesZ : colsZ x i j (ix2 r 0) = rotZ (x (ix2 r 2)) i j :=
  match i, j with
  | ⟨0, _⟩, ⟨0, _⟩ => (column_of r _ 0).trans (cos_z x r)
  | ⟨0, _⟩, ⟨1, _⟩ => (column_of r _ 0).trans (neg_sin_z x r)
  | ⟨0, _⟩, ⟨2, _⟩ => (column_of r _ 0).trans (zeros r)
  | ⟨1, _⟩, ⟨0, _⟩ => (column_of r _ 0).trans (sin_z x r)
  | ⟨1, _⟩, ⟨1, _⟩ => (column_of r _ 0).trans (cos_z x r)
  | ⟨1, _⟩, ⟨2, _⟩ => (column_of r _ 0).trans (zeros r)
  | ⟨2, _⟩, ⟨0, _⟩ => (column_of r _ 0).trans (zeros r)
  | ⟨2, _⟩, ⟨1, _⟩ => (column_of r _ 0).trans (zeros r)
  | ⟨2, _⟩, ⟨2, _⟩ => (column_of r _ 0).trans (ones r)

theorem matX : val_main_v26 (F := Ideal) x (ix3 r i j) = rotX (x (ix2 r 0)) i j := (stackX x r i j).trans (entriesX x r i j)
theorem matY : val_main_v38 (F := Ideal) x (ix3 r i j) = rotY (x (ix2 r 1)) i j := (stackY x r i j).trans (entriesY x r i j)
theorem matZ : val_main_v50 (F := Ideal) x (ix3 r i j) = rotZ (x (ix2 r 2)) i j := (stackZ x r i j).trans (entriesZ x r i j)

/-! ## The two contractions -/

variable (k l : Fin 3)

/-- Which entries the contractions read: `T[r,k,i]` sums `Ry[r,j,k] · Rx[r,i,j]` over `j`, and `R[r,i,l]` sums
    `T[r,k,i] · Rz[r,k,l]` over `k`. -/
theorem left_first : lidx_main_v51 (ix3 r k i) j = ix3 r j k :=
  funext fun a => by match a with | ⟨0, _⟩ => rfl | ⟨1, _⟩ => rfl | ⟨2, _⟩ => rfl
theorem right_first : ridx_main_v51 (ix3 r k i) j = ix3 r i j :=
  funext fun a => by match a with | ⟨0, _⟩ => rfl | ⟨1, _⟩ => rfl | ⟨2, _⟩ => rfl
theorem left_second : lidx_main_v52 (ix3 r i l) k = ix3 r k i :=
  funext fun a => by match a with | ⟨0, _⟩ => rfl | ⟨1, _⟩ => rfl | ⟨2, _⟩ => rfl
theorem right_second : ridx_main_v52 (ix3 r i l) k = ix3 r k l :=
  funext fun a => by match a with | ⟨0, _⟩ => rfl | ⟨1, _⟩ => rfl | ⟨2, _⟩ => rfl

/-- The reference's product, entry `(i, l)` in row `r`, as the double sum over the three rotation tables. -/
theorem product_entry : val_main_v52 (F := Ideal) x (ix3 r i l)
    = ∑ k : Fin 3, (∑ j : Fin 3, rotY (x (ix2 r 1)) j k * rotX (x (ix2 r 0)) i j) * rotZ (x (ix2 r 2)) k l := by
  rw [val_main_v52_apply]
  refine Finset.sum_congr rfl fun k _ => ?_
  rw [left_second, right_second, matZ, val_main_v51_apply]
  refine congrArg (· * _) (Finset.sum_congr rfl fun j _ => ?_)
  rw [left_first, right_first, matY, matX]

/-! ## The translation column, the 3 by 4 tables, and the rows of twelve -/

/-- The fourth column of row `r`'s table holds the translation: its entry `i` is parameter `3 + i` of the row. -/
theorem shift_entry (u : Fin 1) (c : Fin 6) (hc : c.val = 3 + i.val) :
    val_main_v53 (F := Ideal) x (ix3 r i u) = x (ix2 r c) := by
  unfold val_main_v53 val_main_v6
  rw [broadcastInDim_ab_ab1_apply _ _ rfl rfl]
  exact slice2_axis1_apply 3 x _ r i c hc

/-- The first three columns of the table are the product, -/
theorem table_left (L : Fin 4) (hL : L.val = l.val) :
    val_main_v54 (F := Ideal) x (ix3 r i L) = val_main_v52 (F := Ideal) x (ix3 r i l) := by
  unfold val_main_v54
  exact concatenate_pair_apply_left (s₁ := S4194304x3x3) (s₂ := S4194304x3x1) (2 : Fin S4194304x3x4.rank) _ _ _ (ix3 r i L) rfl (ix3 r i l) (fun a => by
    match a with
    | ⟨0, _⟩ => rfl
    | ⟨1, _⟩ => rfl
    | ⟨2, _⟩ => exact hL.symm)

/-- and the fourth is the translation column. -/
theorem table_right : val_main_v54 (F := Ideal) x (ix3 r i (3 : Fin 4)) = val_main_v53 (F := Ideal) x (ix3 r i (0 : Fin 1)) := by
  unfold val_main_v54
  exact concatenate_pair_apply_right (s₁ := S4194304x3x3) (s₂ := S4194304x3x1) (2 : Fin S4194304x3x4.rank) _ _ _ (ix3 r i (3 : Fin 4)) rfl rfl (ix3 r i (0 : Fin 1))
    (fun a ha => by
      match a with
      | ⟨0, _⟩ => rfl
      | ⟨1, _⟩ => rfl
      | ⟨2, _⟩ => exact absurd rfl ha) rfl

/-- Entry `4 i + L` of a row of twelve is entry `(i, L)` of the row's table. -/
theorem flat_entry (L : Fin 4) (q : Fin 12) (hq : q.val = i.val * 4 + L.val) :
    val_main_v55 (F := Ideal) x (ix2 r q) = val_main_v54 (F := Ideal) x (ix3 r i L) := by
  unfold val_main_v55
  exact shapeCast_abc_an_apply _ _ rfl r i L q hq

/-- The nine rotation entries of row `r`, when its three angles are real numbers. -/
theorem rotation_entry (hx : ∃ a : ℝ, x (ix2 r 0) = (a : EReal)) (hy : ∃ a : ℝ, x (ix2 r 1) = (a : EReal))
    (hz : ∃ a : ℝ, x (ix2 r 2) = (a : EReal)) (q : Fin 12) (hq : q.val = 4 * i.val + l.val) :
    val_main_v55 (F := Ideal) x (ix2 r q) = rows (n := 4194304) x (ix2 r q) := by
  obtain ⟨ax, hax⟩ := hx
  obtain ⟨ay, hay⟩ := hy
  obtain ⟨az, haz⟩ := hz
  have hl := l.isLt
  rw [flat_entry x r i ⟨l.val, by omega⟩ q (by show q.val = i.val * 4 + l.val; omega), table_left x r i l _ rfl,
    product_entry, rows_apply, hax, hay, haz]
  exact rotation_product ax ay az _ _ _ i l q hq

/-- The three translation entries of row `r`. -/
theorem translation_entry (q : Fin 12) (c : Fin 6) (hq : q.val = 4 * i.val + 3) (hc : c.val = 3 + i.val) :
    val_main_v55 (F := Ideal) x (ix2 r q) = x (ix2 r c) := by
  rw [flat_entry x r i (3 : Fin 4) q (by show q.val = i.val * 4 + 3; omega), table_right]
  exact shift_entry x r i 0 c hc

/-- THE REFERENCE'S ROW: for a row of real parameters, the reference's twelve entries are the affine row. -/
theorem reference_row (hfin : ∀ c : Fin 6, ∃ a : ℝ, x (ix2 r c) = (a : EReal)) (q : Fin 12) :
    val_main_v55 (F := Ideal) x (ix2 r q) = rows (n := 4194304) x (ix2 r q) := by
  have R := fun (i l : Fin 3) (q : Fin 12) hq => rotation_entry x r i l (hfin 0) (hfin 1) (hfin 2) q hq
  match q with
  | ⟨0, _⟩ => exact R 0 0 _ rfl
  | ⟨1, _⟩ => exact R 0 1 _ rfl
  | ⟨2, _⟩ => exact R 0 2 _ rfl
  | ⟨3, _⟩ => exact (translation_entry x r 0 _ 3 rfl rfl).trans rfl
  | ⟨4, _⟩ => exact R 1 0 _ rfl
  | ⟨5, _⟩ => exact R 1 1 _ rfl
  | ⟨6, _⟩ => exact R 1 2 _ rfl
  | ⟨7, _⟩ => exact (translation_entry x r 1 _ 4 rfl rfl).trans rfl
  | ⟨8, _⟩ => exact R 2 0 _ rfl
  | ⟨9, _⟩ => exact R 2 1 _ rfl
  | ⟨10, _⟩ => exact R 2 2 _ rfl
  | ⟨11, _⟩ => exact (translation_entry x r 2 _ 5 rfl rfl).trans rfl

/-- THE REFERENCE'S RESULT, for finite parameters, is `rows` of the parameters. -/
theorem reference_rows (hfin : ∀ y : S4194304x6.Idx, ∃ a : ℝ, x y = (a : EReal)) :
    val_main_v55 (F := Ideal) x = rows (n := 4194304) x := by
  funext y
  obtain ⟨r, q, rfl⟩ : ∃ (r : Fin 4194304) (q : Fin 12), y = ix2 r q := ⟨y 0, y 1, eq_ix2 y⟩
  exact reference_row x r (fun c => hfin (ix2 r c)) q

end Cert.EulerAffine.Reference
-- ==== Proof.Finite.lean ====
/-
  The precondition, read: every parameter is a real number.

  `finite_inputs` is `jnp.all(|x| < +∞)`: an `and`-reduction, over the whole array, of the comparison of `|x|` with the
  float `+∞`. If the reduction is 1, the comparison is 1 at every index; and an extended real whose absolute value
  `max x (-x)` is below `⊤` is neither `⊤` nor `⊥`, hence a real number.
-/
import proofs.«173773_j74208444940704_2_alg».proof.Pre_finite_inputs
import Idealize.ShloMosaic.Lib.ReduceAll
import Idealize.ShloMosaic.Lib.ValueIdx
import Idealize.ShloMosaic.PureOps.Ideal.Laws

noncomputable section

namespace Cert.EulerAffine

open Idealize.ShloMosaic

instance subsingleton_scalar_idx : Subsingleton Cert.Pre_finite_inputs.S_.Idx := ⟨fun _ _ => funext fun d => d.elim0⟩

/-- An extended real whose absolute value compares below the float `+∞` is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- Under `finite_inputs` every entry of the parameter array is a real number. -/
theorem finite_of_pre [Cert.Pre_finite_inputs.Facts] (x : FVec Ideal Cert.Pre_finite_inputs.S4194304x6 .f32)
    (h : Cert.Pre_finite_inputs.fn (F := Ideal) x = fun _ => 1#1) (i : Cert.Pre_finite_inputs.S4194304x6.Idx) :
    ∃ r : ℝ, x i = (r : EReal) := by
  have e := congrFun h ValueIdx.ix0
  dsimp only [Cert.Pre_finite_inputs.fn] at e
  exact real_of_abs_lt_inf (x i) (Host.reduce_andi_all _ _ _ _ _ e i)

end Cert.EulerAffine
-- ==== Proof.lean ====
/-
  The kernel turns each row `(ax, ay, az, tx, ty, tz)` of a `[4194304, 6]` array — three Euler angles and a translation —
  into the row-major 3 by 4 matrix `[R | t]`, `R = Rx(ax) · Ry(ay) · Rz(az)`, using the closed form of the product
  (`R00 = cy cz`, `R01 = -cy sz`, … : Proof/AffineRow.lean) and storing the twelve entries one output column at a time;
  the reference builds the three rotation matrices entry by entry, multiplies them with two batched contractions,
  appends the translation as a fourth column and flattens.

  At the ideal instance both results are `rows` of the parameter array:
  * the kernel, block by block (Proof/KernelBlock.lean: the twelve column stores of a block are the affine rows of the
    block's rows) and then over the 512 blocks, which tile the array (Proof/KernelArray.lean);
  * the reference, entry by entry (Proof/ReferenceRows.lean), where the triple product collapses to the closed form
    because every parameter is FINITE (Proof/Finite.lean reads that off the precondition; Proof/RotationProduct.lean is
    the identity, one of polynomials in the six sines and cosines — on the extended reals it fails at infinite angles,
    whose sine and cosine are not numbers).
  The idealized kernel is the kernel's own text read over the extended reals — no operation was rewritten — so the
  preservation claim has no conjunct; the three frames are the generated ones, the reference's being its generated run
  with the result dropped.
-/
import proofs.«173773_j74208444940704_2_alg».proof.Defs
import proofs.«173773_j74208444940704_2_alg».proof.Proof.Gen.Kernel
import proofs.«173773_j74208444940704_2_alg».proof.Proof.Gen.Kernel.Skeleton
import proofs.«173773_j74208444940704_2_alg».proof.Proof.Gen.Kernel.Launch
import proofs.«173773_j74208444940704_2_alg».proof.Proof.Gen.Kernel.Points
import proofs.«173773_j74208444940704_2_alg».proof.Proof.Gen.Kernel.Frame
import proofs.«173773_j74208444940704_2_alg».proof.Proof.Gen.KernelIdeal
import proofs.«173773_j74208444940704_2_alg».proof.Proof.Gen.KernelIdeal.Skeleton
import proofs.«173773_j74208444940704_2_alg».proof.Proof.Gen.KernelIdeal.Launch
import proofs.«173773_j74208444940704_2_alg».proof.Proof.Gen.KernelIdeal.Points
import proofs.«173773_j74208444940704_2_alg».proof.Proof.Gen.KernelIdeal.Frame
import proofs.«173773_j74208444940704_2_alg».proof.Proof.Gen.ReferenceIdeal
import proofs.«173773_j74208444940704_2_alg».proof.Proof.Gen.KernelIdeal.Value
import proofs.«173773_j74208444940704_2_alg».proof.Proof.Gen.ReferenceIdeal.Run
import proofs.«173773_j74208444940704_2_alg».proof.Proof.Gen.ReferenceIdeal.Read
import proofs.«173773_j74208444940704_2_alg».proof.Proof.Gen.Pre_finite_inputs
import proofs.«173773_j74208444940704_2_alg».proof.Proof.KernelArray
import proofs.«173773_j74208444940704_2_alg».proof.Proof.ReferenceRows
import proofs.«173773_j74208444940704_2_alg».proof.Proof.Finite
import Idealize.ShloMosaic.Adequacy
import Idealize.ShloMosaic.Init

noncomputable section

namespace Cert.Proof

open Idealize.ShloMosaic Idealize.ShloMosaic.TcCoe Idealize.SL.Sem Cert.EulerAffine

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with `rows` of the (shared, finite) parameter array in their result. -/
theorem algebraic : Cert.algebraic_KernelIdeal_ReferenceIdeal := by
  intro m ρ m' ρ' hpre hagree
  refine ⟨fun c => rows (n := 4194304) (m ((c : Thread Cert.KernelIdeal.nD Cert.KernelIdeal.τ).loc Cert.KernelIdeal.main_arg0)),
    Cert.EulerAffine.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v55_eq, hagree c]
  exact Cert.EulerAffine.Reference.reference_rows _ (fun y => finite_of_pre _ (hpre c) y)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
